-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S500000x32 : Shape := ⟨2, ![500000, 32]⟩
abbrev S128x32 : Shape := ⟨2, ![128, 32]⟩
abbrev S128 : Shape := ⟨1, ![128]⟩
abbrev S128x128 : Shape := ⟨2, ![128, 128]⟩
abbrev S1x128 : Shape := ⟨2, ![1, 128]⟩
abbrev S1 : Shape := ⟨1, ![1]⟩
abbrev S32x32 : Shape := ⟨2, ![32, 32]⟩

class Facts : Prop where
  reducesTo_S_S_d : S_.ReducesTo [] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg8 : FVec F S32x32 .f32) (main_v32 : IVec S_ 1) (main_v33 : FVec F S1 .f32) : IVec S_ 1 :=
  let main_cst_12 : FVec F S_ .f32 := constant S_ .f32 0x7F800000#32
  let main_v34 : FVec F S1 .f32 := broadcastInDim S1 ![] bcast_S_S1 main_cst_12
  let main_v35 : IVec S1 1 := cmpf .olt main_v33 main_v34
  let main_c_13 : IVec S_ 1 := constantI S_ 1 1#1
  let main_v36 : IVec S_ 1 := (fun x v => Host.reduce IntOp.andi x v reducesTo_S1_S_d0 h_S_) main_v35 main_c_13
  let main_v37 : IVec S_ 1 := andi main_v32 main_v36
  let main_v38 : FVec F S32x32 .f32 := Host.absf main_arg8
  let main_cst_14 : FVec F S_ .f32 := constant S_ .f32 0x7F800000#32
  let main_v39 : FVec F S32x32 .f32 := broadcastInDim S32x32 ![] bcast_S_S32x32 main_cst_14
  let main_v40 : IVec S32x32 1 := cmpf .olt main_v38 main_v39
  let main_c_15 : IVec S_ 1 := constantI S_ 1 1#1
  let main_v41 : IVec S_ 1 := (fun x v => Host.reduce IntOp.andi x v reducesTo_S32x32_S_d0_1 h_S_) main_v40 main_c_15
  let main_v42 : IVec S_ 1 := andi main_v37 main_v41
  main_v42

def fn_part1 {F : FTy → Type} [FloatOps F] (main_arg4 : FVec F S128x128 .f32) (main_arg5 : FVec F S128 .f32) (main_arg6 : FVec F S1x128 .f32) (main_arg7 : FVec F S1 .f32) (main_arg8 : FVec F S32x32 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg4
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S1x128 .f32 := Host.absf main_arg6
  let main_cst_10 : FVec F S_ .f32 := constant S_ .f32 0x7F800000#32
  let main_v29 : FVec F S1x128 .f32 := broadcastInDim S1x128 ![] bcast_S_S1x128 main_cst_10
  let main_v30 : IVec S1x128 1 := cmpf .olt main_v28 main_v29
  let main_c_11 : IVec S_ 1 := constantI S_ 1 1#1
  let main_v31 : IVec S_ 1 := (fun x v => Host.reduce IntOp.andi x v reducesTo_S1x128_S_d0_1 h_S_) main_v30 main_c_11
  let main_v32 : IVec S_ 1 := andi main_v27 main_v31
  let main_v33 : FVec F S1 .f32 := Host.absf main_arg7
  fn_part2 (F := F) main_arg8 main_v32 main_v33

def fn {F : FTy → Type} [FloatOps F] (main_arg0 : FVec F S_ .f32) (main_arg1 : FVec F S500000x32 .f32) (main_arg2 : FVec F S128x32 .f32) (main_arg3 : FVec F S128 .f32) (main_arg4 : FVec F S128x128 .f32) (main_arg5 : FVec F S128 .f32) (main_arg6 : FVec F S1x128 .f32) (main_arg7 : FVec F S1 .f32) (main_arg8 : FVec F S32x32 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S500000x32 .f32 := Host.absf main_arg1
  let main_cst_0 : FVec F S_ .f32 := constant S_ .f32 0x7F800000#32
  let main_v4 : FVec F S500000x32 .f32 := broadcastInDim S500000x32 ![] bcast_S_S500000x32 main_cst_0
  let main_v5 : IVec S500000x32 1 := cmpf .olt main_v3 main_v4
  let main_c_1 : IVec S_ 1 := constantI S_ 1 1#1
  let main_v6 : IVec S_ 1 := (fun x v => Host.reduce IntOp.andi x v reducesTo_S500000x32_S_d0_1 h_S_) main_v5 main_c_1
  let main_v7 : IVec S_ 1 := andi main_v2 main_v6
  let main_v8 : FVec F S128x32 .f32 := Host.absf main_arg2
  let main_cst_2 : FVec F S_ .f32 := constant S_ .f32 0x7F800000#32
  let main_v9 : FVec F S128x32 .f32 := broadcastInDim S128x32 ![] bcast_S_S128x32 main_cst_2
  let main_v10 : IVec S128x32 1 := cmpf .olt main_v8 main_v9
  let main_c_3 : IVec S_ 1 := constantI S_ 1 1#1
  let main_v11 : IVec S_ 1 := (fun x v => Host.reduce IntOp.andi x v reducesTo_S128x32_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_arg7 main_arg8 main_v12 main_v15 main_c_5
-- ==== Kernel.lean ====
abbrev S_ : Shape := ⟨0, ![]⟩
abbrev S500000x32 : Shape := ⟨2, ![500000, 32]⟩
abbrev S128x32 : Shape := ⟨2, ![128, 32]⟩
abbrev S128 : Shape := ⟨1, ![128]⟩
abbrev S128x128 : Shape := ⟨2, ![128, 128]⟩
abbrev S1x128 : Shape := ⟨2, ![1, 128]⟩
abbrev S1 : Shape := ⟨1, ![1]⟩
abbrev S32x32 : Shape := ⟨2, ![32, 32]⟩
abbrev S32x128 : Shape := ⟨2, ![32, 128]⟩
abbrev S5000x32 : Shape := ⟨2, ![5000, 32]⟩
abbrev S5000x128 : Shape := ⟨2, ![5000, 128]⟩

abbrev nBuf : Space → Nat
  | .hbm => 18
  | .vmem => 11
  | .smem => 0
  | _ => 0

abbrev bufTy : (tb : Table) → Fin (tcTables nBuf tb) → BufTy
  | .hbm, ⟨0, _⟩ => ⟨S_, .f32⟩
  | .hbm, ⟨1, _⟩ => ⟨S500000x32, .f32⟩
  | .hbm, ⟨2, _⟩ => ⟨S128x32, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S32x32, .f32⟩
  | .hbm, ⟨9, _⟩ => ⟨S32x128, .f32⟩
  | .hbm, ⟨10, _⟩ => ⟨S128x128, .f32⟩
  | .hbm, ⟨11, _⟩ => ⟨S32x32, .f32⟩
  | .hbm, ⟨12, _⟩ => ⟨S128x32, .f32⟩
  | .hbm, ⟨13, _⟩ => ⟨S32x128, .bf16⟩
  | .hbm, ⟨14, _⟩ => ⟨S128x128, .bf16⟩
  | .hbm, ⟨15, _⟩ => ⟨S128x128, .bf16⟩
  | .hbm, ⟨16, _⟩ => ⟨S128x32, .bf16⟩
  | .hbm, ⟨17, _⟩ => ⟨S500000x32, .f32⟩
  | .local _ .vmem, ⟨0, _⟩ => ⟨S5000x32, .f32⟩
  | .local _ .vmem, ⟨1, _⟩ => ⟨S5000x32, .f32⟩
  | .local _ .vmem, ⟨2, _⟩ => ⟨S32x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S1x128, .f32⟩
  | .local _ .vmem, ⟨8, _⟩ => ⟨S128x32, .bf16⟩
  | .local _ .vmem, ⟨9, _⟩ => ⟨S5000x32, .f32⟩
  | .local _ .vmem, ⟨10, _⟩ => ⟨S5000x32, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x32_S32x128_1_0 : S128x32.Transposes [1, 0] S32x128
  transposes_S128x128_S128x128_1_0 : S128x128.Transposes [1, 0] S128x128
  transposes_S32x32_S32x32_1_0 : S32x32.Transposes [1, 0] S32x32
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128_S1x128 : S128.ShapeCasts S1x128
  broadcasts_S1x128_S5000x128 : S1x128.Broadcasts S5000x128
  dot_S128x32_S32x32_S128x32_1_0_0_1_n_n_wf : DotDims.WF S128x32 S32x32 S128x32 [1] [0] [0] [1] [] []
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S500000x32.size a
  hwx0_0 : ∀ i : grid0.Coords, EltTy.bits .f32 = 32 ∨ (Rect.block (s := S500000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .bf16 = 32 ∨ (Rect.block (s := S32x128) S32x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .bf16 = 32 ∨ (Rect.block (s := S128x32) S128x32.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S500000x32.size a
  hwx0_8 : ∀ i : grid0.Coords, EltTy.bits .f32 = 32 ∨ (Rect.block (s := S500000x32) S5000x32.size (cc0_transform_8 i) (hinb0_8 i)).WholeWords (EltTy.packing .f32)

variable [Facts₀]

def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg1) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S_ : Shape := ⟨0, ![]⟩
abbrev S500000x32 : Shape := ⟨2, ![500000, 32]⟩
abbrev S128x32 : Shape := ⟨2, ![128, 32]⟩
abbrev S128 : Shape := ⟨1, ![128]⟩
abbrev S128x128 : Shape := ⟨2, ![128, 128]⟩
abbrev S1x128 : Shape := ⟨2, ![1, 128]⟩
abbrev S1 : Shape := ⟨1, ![1]⟩
abbrev S32x32 : Shape := ⟨2, ![32, 32]⟩
abbrev S32x128 : Shape := ⟨2, ![32, 128]⟩
abbrev S500000x128 : Shape := ⟨2, ![500000, 128]⟩
abbrev S128x1 : Shape := ⟨2, ![128, 1]⟩
abbrev S500000x1 : Shape := ⟨2, ![500000, 1]⟩
abbrev S1x1 : Shape := ⟨2, ![1, 1]⟩
abbrev S500000 : Shape := ⟨1, ![500000]⟩

abbrev nBuf : Space → Nat
  | .hbm => 49
  | .vmem => 0
  | .smem => 0
  | _ => 0

abbrev bufTy : (tb : Table) → Fin (tcTables nBuf tb) → BufTy
  | .hbm, ⟨0, _⟩ => ⟨S_, .f32⟩
  | .hbm, ⟨1, _⟩ => ⟨S500000x32, .f32⟩
  | .hbm, ⟨2, _⟩ => ⟨S128x32, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S32x32, .f32⟩
  | .hbm, ⟨9, _⟩ => ⟨S32x128, .f32⟩
  | .hbm, ⟨10, _⟩ => ⟨S500000x128, .f32⟩
  | .hbm, ⟨11, _⟩ => ⟨S1x128, .f32⟩
  | .hbm, ⟨12, _⟩ => ⟨S500000x128, .f32⟩
  | .hbm, ⟨13, _⟩ => ⟨S500000x128, .f32⟩
  | .hbm, ⟨14, _⟩ => ⟨S500000x128, .f32⟩
  | .hbm, ⟨15, _⟩ => ⟨S_, .f32⟩
  | .hbm, ⟨16, _⟩ => ⟨S500000x128, .f32⟩
  | .hbm, ⟨17, _⟩ => ⟨S500000x128, .f32⟩
  | .hbm, ⟨18, _⟩ => ⟨S128x128, .f32⟩
  | .hbm, ⟨19, _⟩ => ⟨S500000x128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S500000x128, .f32⟩
  | .hbm, ⟨24, _⟩ => ⟨S_, .f32⟩
  | .hbm, ⟨25, _⟩ => ⟨S500000x128, .f32⟩
  | .hbm, ⟨26, _⟩ => ⟨S500000x128, .f32⟩
  | .hbm, ⟨27, _⟩ => ⟨S128x1, .f32⟩
  | .hbm, ⟨28, _⟩ => ⟨S500000x1, .f32⟩
  | .hbm, ⟨29, _⟩ => ⟨S1x1, .f32⟩
  | .hbm, ⟨30, _⟩ => ⟨S500000x1, .f32⟩
  | .hbm, ⟨31, _⟩ => ⟨S500000x1, .f32⟩
  | .hbm, ⟨32, _⟩ => ⟨S500000, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S500000, .f32⟩
  | .hbm, ⟨37, _⟩ => ⟨S500000x1, .f32⟩
  | .hbm, ⟨38, _⟩ => ⟨S500000x128, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S500000x128, .f32⟩
  | .hbm, ⟨44, _⟩ => ⟨S500000x128, .f32⟩
  | .hbm, ⟨45, _⟩ => ⟨S500000x128, .f32⟩
  | .hbm, ⟨46, _⟩ => ⟨S500000x32, .f32⟩
  | .hbm, ⟨47, _⟩ => ⟨S32x32, .f32⟩
  | .hbm, ⟨48, _⟩ => ⟨S500000x32, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S128x32_S32x128_1_0 : S128x32.Transposes [1, 0] S32x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  reducesTo_S500000_S_d0 : S500000.ReducesTo [0] S_
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  transposes_S32x32_S32x32_1_0 : S32x32.Transposes [1, 0] S32x32
  dot_S500000x32_S32x128_S500000x128_1_0_0_1_n_n_wf : DotDims.WF S500000x32 S32x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []
  dot_S500000x1_S128x1_S500000x128_1_1_0_0_n_n_wf : DotDims.WF S500000x1 S128x1 S500000x128 [1] [1] [0] [0] [] []
  dot_S500000x128_S128x128_S500000x128_1_1_0_0_n_n_wf : DotDims.WF S500000x128 S128x128 S500000x128 [1] [1] [0] [0] [] []
  dot_S500000x128_S32x128_S500000x32_1_1_0_0_n_n_wf : DotDims.WF S500000x128 S32x128 S500000x32 [1] [1] [0] [0] [] []
  dot_S500000x32_S32x32_S500000x32_1_0_0_1_n_n_wf : DotDims.WF S500000x32 S32x32 S500000x32 [1] [0] [0] [1] [] []

variable [Facts₀]

def dot_S500000x32_S32x128_S500000x128_1_0_0_1_n_n : DotDims S500000x32 S32x128 S500000x128 where
  lhsContracting := [1]
  rhsContracting := [0]
  lhsNonContracting := [0]
  rhsNonContracting := [1]
  lhsBatch := []
  rhsBatch := []
  wf := dot_S500000x32_S32x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S500000x1_S128x1_S500000x128_1_1_0_0_n_n : DotDims S500000x1 S128x1 S500000x128 where
  lhsContracting := [1]
  rhsContracting := [1]
  lhsNonContracting := [0]
  rhsNonContracting := [0]
  lhsBatch := []
  rhsBatch := []
  wf := dot_S500000x1_S128x1_S500000x128_1_1_0_0_n_n_wf
def dot_S500000x128_S128x128_S500000x128_1_1_0_0_n_n : DotDims S500000x128 S128x128 S500000x128 where
  lhsContracting := [1]
  rhsContracting := [1]
  lhsNonContracting := [0]
  rhsNonContracting := [0]
  lhsBatch := []
  rhsBatch := []
  wf := dot_S500000x128_S128x128_S500000x128_1_1_0_0_n_n_wf
def dot_S500000x128_S32x128_S500000x32_1_1_0_0_n_n : DotDims S500000x128 S32x128 S500000x32 where
  lhsContracting := [1]
  rhsContracting := [1]
  lhsNonContracting := [0]
  rhsNonContracting := [0]
  lhsBatch := []
  rhsBatch := []
  wf := dot_S500000x128_S32x128_S500000x32_1_1_0_0_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf

class Facts : Prop extends Facts₀ where

variable [Facts]
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.LibGradientLaw.lean ====
/-
  The gradient of a two-layer tanh perceptron's scalar head with respect to its input row, followed by a fixed linear
  map of the input space, written in two arrangements on the extended reals, and the law that joins them.

  For one input row, with hidden activations `h0 = tanh (row · W0ᵀ + b0)` and `h1 = tanh (h0 · W1ᵀ + b1)` and head
  weights `wout`, the chain rule gives the cotangents
    `g1 m = (1 − h1 m ²) · wout m`,   `g0 n = (1 − h0 n ²) · ∑ m, g1 m · W1 m n`,
  and the rotated gradient is `∑ k, (∑ n, g0 n · W0 n k) · J j k`.

  * `rotatedFirst` multiplies `g0` by the matrix `W0 · Jᵀ` formed beforehand, and spells `1 − h²` as `1 − h · h`;
  * `rotatedLast` follows reverse-mode differentiation: the head's cotangent is a sum over the one output unit, the
    derivative of tanh is spelt `c · (1 − h) + c · (1 − h) · h`, and the rotation by `J` comes after the product with `W0`.

  On the real numbers the two agree by `(1 − h)(1 + h) = 1 − h²` and by the associativity of the matrix product, which
  distributes products over finite sums.  Distribution fails at the infinities of the extended reals, so the law is
  stated for weights that are real numbers; the activations are real numbers because `tanh` maps every extended real
  into `[−1, 1]`.
-/
import Idealize.ShloMosaic.PureOps.Ideal
import Idealize.ShloMosaic.Lib.ValueIdx
import proofs.«114070_j19816979103946_2_alg».proof.Proof.LibIsReal

noncomputable section

namespace Cert.GradientLaw

open Idealize.ShloMosaic Idealize.ShloMosaic.ValueIdx
open scoped BigOperators

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `tanh` of any extended real is a real number (`−1` and `1` at the infinities). -/
theorem tanh_isReal (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

variable {I H O : ℕ}

/-- One tanh layer applied to a row: unit `n` is `tanh (∑ k, row k · W n k + b n)`. -/
def layer (row : Fin I → EReal) (W : Fin H → Fin I → EReal) (b : Fin H → EReal) (n : Fin H) : EReal :=
  Ideal.tanh ((∑ k : Fin I, row k * W n k) + b n)

theorem layer_isReal (row : Fin I → EReal) (W : Fin H → Fin I → EReal) (b : Fin H → EReal) (n : Fin H) :
    IsReal (layer row W b n) := tanh_isReal _

/-- The hidden layer's cotangent by the chain rule: `(1 − h0 n · h0 n) · ∑ m, ((1 − h1 m · h1 m) · wout m) · W1 m n`. -/
def cotangent (one : EReal) (h0 h1 wout : Fin H → EReal) (W1 : Fin H → Fin H → EReal) (n : Fin H) : EReal :=
  (one - h0 n * h0 n) * ∑ m : Fin H, ((one - h1 m * h1 m) * wout m) * W1 m n

/-- The rotated gradient with the rotation folded beforehand into a matrix `A` (in use, `A n j = ∑ k, W0 n k · J j k`). -/
def rotatedFirst (one : EReal) (h0 h1 wout : Fin H → EReal) (W1 : Fin H → Fin H → EReal) (A : Fin H → Fin O → EReal)
    (j : Fin O) : EReal :=
  ∑ n : Fin H, cotangent one h0 h1 wout W1 n * A n j

/-- The rotated gradient as reverse-mode differentiation spells it, the rotation applied last. -/
def rotatedLast (one : EReal) (h0 h1 wout : Fin H → EReal) (W1 : Fin H → Fin H → EReal) (W0 : Fin H → Fin I → EReal)
    (J : Fin O → Fin I → EReal) (j : Fin O) : EReal :=
  ∑ k : Fin I, (∑ n : Fin H,
      ((∑ m : Fin H, (one * wout m * (one - h1 m) + one * wout m * (one - h1 m) * h1 m) * W1 m n) * (one - h0 n)
        + (∑ m : Fin H, (one * wout m * (one - h1 m) + one * wout m * (one - h1 m) * h1 m) * W1 m n) * (one - h0 n) * h0 n)
      * W0 n k) * J j k

/-- The same law on the real numbers. -/
theorem real_law (a c w : Fin H → ℝ) (w1 : Fin H → Fin H → ℝ) (w0 : Fin H → Fin I → ℝ) (r : Fin O → Fin I → ℝ) (j : Fin O) :
    ∑ k : Fin I, (∑ n : Fin H,
      ((∑ m : Fin H, (1 * w m * (1 - c m) + 1 * w m * (1 - c m) * c m) * w1 m n) * (1 - a n)
        + (∑ m : Fin H, (1 * w m * (1 - c m) + 1 * w m * (1 - c m) * c m) * w1 m n) * (1 - a n) * a n)
      * w0 n k) * r j k
    = ∑ n : Fin H, ((1 - a n * a n) * ∑ m : Fin H, ((1 - c m * c m) * w m) * w1 m n) * ∑ k : Fin I, w0 n k * r j k := by
  have e1 : ∀ m, 1 * w m * (1 - c m) + 1 * w m * (1 - c m) * c m = (1 - c m * c m) * w m := fun m => by ring
  simp only [e1]
  have e2 : ∀ n, (∑ m : Fin H, ((1 - c m * c m) * w m) * w1 m n) * (1 - a n)
      + (∑ m : Fin H, ((1 - c m * c m) * w m) * w1 m n) * (1 - a n) * a n
      = (1 - a n * a n) * ∑ m : Fin H, ((1 - c m * c m) * w m) * w1 m n := fun n => by ring
  simp only [e2]
  simp only [Finset.sum_mul, Finset.mul_sum]
  rw [Finset.sum_comm]
  refine Finset.sum_congr rfl fun n _ => Finset.sum_congr rfl fun k _ => Finset.sum_congr rfl fun m _ => ?_
  ring

/-- The two arrangements agree when the weights are real numbers and `one` is the real number one. -/
theorem rotatedLast_eq_rotatedFirst (one : EReal) (hone : one = ((1 : ℝ) : EReal)) (h0 h1 wout : Fin H → EReal)
    (W1 : Fin H → Fin H → EReal) (W0 : Fin H → Fin I → EReal) (J : Fin O → Fin I → EReal)
    (hh0 : ∀ n, IsReal (h0 n)) (hh1 : ∀ n, IsReal (h1 n)) (hwout : ∀ n, IsReal (wout n))
    (hW1 : ∀ m n, IsReal (W1 m n)) (hW0 : ∀ n k, IsReal (W0 n k)) (hJ : ∀ j k, IsReal (J j k)) (j : Fin O) :
    rotatedLast one h0 h1 wout W1 W0 J j = rotatedFirst one h0 h1 wout W1 (fun n j => ∑ k : Fin I, W0 n k * J j k) j := by
  choose a ha using hh0
  choose c hc using hh1
  choose w hw using hwout
  choose w1 hw1 using hW1
  choose w0 hw0 using hW0
  choose r hr using hJ
  unfold rotatedLast rotatedFirst cotangent
  simp only [hone, ha, hc, hw, hw1, hw0, hr, ← EReal.coe_mul, ← EReal.coe_add, ← EReal.coe_sub, ← coe_sum]
  exact congrArg _ (real_law a c w w1 w0 r j)

/-! ## The same, for every row of a matrix of inputs -/

/-- The rotated gradient of one input row from the weight arrays, rotation folded in first: the two layers read
    `W0 (n, k)` and `W1 (n, m)`, the head's weights are the one row of `Wout`, and `A n j = ∑ k, W0 (n, k) · J (j, k)`. -/
def rowGradient (one : EReal) (row : Fin I → EReal) (W0 : (⟨2, ![H, I]⟩ : Shape).Idx → EReal) (b0 : (⟨1, ![H]⟩ : Shape).Idx → EReal)
    (W1 : (⟨2, ![H, H]⟩ : Shape).Idx → EReal) (b1 : (⟨1, ![H]⟩ : Shape).Idx → EReal) (Wout : (⟨2, ![1, H]⟩ : Shape).Idx → EReal)
    (J : (⟨2, ![O, I]⟩ : Shape).Idx → EReal) (j : Fin O) : EReal :=
  rotatedFirst one (layer row (fun n k => W0 (ix2 n k)) (fun n => b0 (ix1 n)))
    (layer (layer row (fun n k => W0 (ix2 n k)) (fun n => b0 (ix1 n))) (fun n m => W1 (ix2 n m)) (fun n => b1 (ix1 n)))
    (fun n => Wout (ix2 (0 : Fin 1) n)) (fun m n => W1 (ix2 m n)) (fun n j => ∑ k : Fin I, W0 (ix2 n k) * J (ix2 j k)) j

/-- The same row's gradient in the reverse-mode arrangement. -/
def rowGradientReverse (one : EReal) (row : Fin I → EReal) (W0 : (⟨2, ![H, I]⟩ : Shape).Idx → EReal) (b0 : (⟨1, ![H]⟩ : Shape).Idx → EReal)
    (W1 : (⟨2, ![H, H]⟩ : Shape).Idx → EReal) (b1 : (⟨1, ![H]⟩ : Shape).Idx → EReal) (Wout : (⟨2, ![1, H]⟩ : Shape).Idx → EReal)
    (J : (⟨2, ![O, I]⟩ : Shape).Idx → EReal) (j : Fin O) : EReal :=
  rotatedLast one (layer row (fun n k => W0 (ix2 n k)) (fun n => b0 (ix1 n)))
    (layer (layer row (fun n k => W0 (ix2 n k)) (fun n => b0 (ix1 n))) (fun n m => W1 (ix2 n m)) (fun n => b1 (ix1 n)))
    (fun n => Wout (ix2 (0 : Fin 1) n)) (fun m n => W1 (ix2 m n)) (fun n k => W0 (ix2 n k)) (fun j k => J (ix2 j k)) j

/-- With real weights the two arrangements give one value for every row; the row itself and the biases are arbitrary. -/
theorem rowGradientReverse_eq (one : EReal) (hone : one = ((1 : ℝ) : EReal)) (row : Fin I → EReal)
    (W0 : (⟨2, ![H, I]⟩ : Shape).Idx → EReal) (b0 : (⟨1, ![H]⟩ : Shape).Idx → EReal)
    (W1 : (⟨2, ![H, H]⟩ : Shape).Idx → EReal) (b1 : (⟨1, ![H]⟩ : Shape).Idx → EReal) (Wout : (⟨2, ![1, H]⟩ : Shape).Idx → EReal)
    (J : (⟨2, ![O, I]⟩ : Shape).Idx → EReal)
    (hW0 : ∀ i, IsReal (W0 i)) (hW1 : ∀ i, IsReal (W1 i)) (hWout : ∀ i, IsReal (Wout i)) (hJ : ∀ i, IsReal (J i)) (j : Fin O) :
    rowGradientReverse one row W0 b0 W1 b1 Wout J j = rowGradient one row W0 b0 W1 b1 Wout J j :=
  rotatedLast_eq_rotatedFirst one hone _ _ _ _ _ _ (fun _ => layer_isReal _ _ _ _) (fun _ => layer_isReal _ _ _ _)
    (fun _ => hWout _) (fun _ _ => hW1 _) (fun _ _ => hW0 _) (fun _ _ => hJ _) j

/-- The gradient array: entry `(r, j)` is the rotated gradient at row `r` of `X`. -/
def gradientArray {R : ℕ} (one : EReal) (X : (⟨2, ![R, I]⟩ : Shape).Idx → EReal) (W0 : (⟨2, ![H, I]⟩ : Shape).Idx → EReal)
    (b0 : (⟨1, ![H]⟩ : Shape).Idx → EReal) (W1 : (⟨2, ![H, H]⟩ : Shape).Idx → EReal) (b1 : (⟨1, ![H]⟩ : Shape).Idx → EReal)
    (Wout : (⟨2, ![1, H]⟩ : Shape).Idx → EReal) (J : (⟨2, ![O, I]⟩ : Shape).Idx → EReal) : (⟨2, ![R, O]⟩ : Shape).Idx → EReal :=
  fun i => rowGradient one (fun k => X (ix2 (i 0) k)) W0 b0 W1 b1 Wout J (i 1)

theorem gradientArray_ix2 {R : ℕ} (one : EReal) (X : (⟨2, ![R, I]⟩ : Shape).Idx → EReal) (W0 : (⟨2, ![H, I]⟩ : Shape).Idx → EReal)
    (b0 : (⟨1, ![H]⟩ : Shape).Idx → EReal) (W1 : (⟨2, ![H, H]⟩ : Shape).Idx → EReal) (b1 : (⟨1, ![H]⟩ : Shape).Idx → EReal)
    (Wout : (⟨2, ![1, H]⟩ : Shape).Idx → EReal) (J : (⟨2, ![O, I]⟩ : Shape).Idx → EReal) (r : Fin R) (j : Fin O) :
    gradientArray one X W0 b0 W1 b1 Wout J (ix2 r j) = rowGradient one (fun k => X (ix2 r k)) W0 b0 W1 b1 Wout J j := rfl

end Cert.GradientLaw

end
-- ==== Proof.FiniteWeights.lean ====
/-
  What the precondition gives: every float input has absolute value below `+∞`, checked array by array and joined by
  `and`.  Read back, each entry of the weight arrays `W0`, `W1`, `Wout` and `J` is a real number — the four arrays whose
  entries are multiplied across sums when the gradient's matrix products are re-associated.
-/
import proofs.«114070_j19816979103946_2_alg».proof.Pre_finite_inputs
import Idealize.ShloMosaic.Lib.ReduceAll
import Idealize.ShloMosaic.Lib.ValueIdx
import proofs.«114070_j19816979103946_2_alg».proof.Proof.LibIsReal

noncomputable section

namespace Cert.FiniteWeights

open Idealize.ShloMosaic Idealize.ShloMosaic.ValueIdx Cert.Pre_finite_inputs

/-- The scalar shape has one index. -/
instance : Subsingleton S_.Idx := ⟨fun _ _ => funext fun d => d.elim0⟩

/-- An extended real that compares below the binary32 `+∞` in absolute value is a real number. -/
theorem isReal_of_abs_lt_inf (x : EReal)
    (h : FloatOps.cmpf (F := Ideal) (φ := .f32) .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  refine isReal_of_abs_lt_top ?_
  by_contra hn
  simp [hn] at h'

variable [Cert.Pre_finite_inputs.Facts]

/-- Under the precondition the four weight arrays hold real numbers. -/
theorem weights_real (a0 : FVec Ideal S_ .f32) (a1 : FVec Ideal S500000x32 .f32) (a2 : FVec Ideal S128x32 .f32)
    (a3 : FVec Ideal S128 .f32) (a4 : FVec Ideal S128x128 .f32) (a5 : FVec Ideal S128 .f32) (a6 : FVec Ideal S1x128 .f32)
    (a7 : FVec Ideal S1 .f32) (a8 : FVec Ideal S32x32 .f32)
    (h : fn (F := Ideal) a0 a1 a2 a3 a4 a5 a6 a7 a8 = fun _ => 1#1) :
    (∀ i, IsReal (a2 i)) ∧ (∀ i, IsReal (a4 i)) ∧ (∀ i, IsReal (a6 i)) ∧ (∀ i, IsReal (a8 i)) := by
  have h0 := congrFun h ix0
  dsimp only [fn, fn_part1, fn_part2] at h0
  obtain ⟨h37, hJ⟩ := IntOp.andi_eq_one.1 h0
  obtain ⟨h32, -⟩ := IntOp.andi_eq_one.1 h37
  obtain ⟨h27, hWout⟩ := IntOp.andi_eq_one.1 h32
  obtain ⟨h22, -⟩ := IntOp.andi_eq_one.1 h27
  obtain ⟨h17, hW1⟩ := IntOp.andi_eq_one.1 h22
  obtain ⟨h12, -⟩ := IntOp.andi_eq_one.1 h17
  obtain ⟨-, hW0⟩ := IntOp.andi_eq_one.1 h12
  exact ⟨fun i => isReal_of_abs_lt_inf _ (Host.reduce_andi_all _ _ _ _ ix0 hW0 i),
    fun i => isReal_of_abs_lt_inf _ (Host.reduce_andi_all _ _ _ _ ix0 hW1 i),
    fun i => isReal_of_abs_lt_inf _ (Host.reduce_andi_all _ _ _ _ ix0 hWout i),
    fun i => isReal_of_abs_lt_inf _ (Host.reduce_andi_all _ _ _ _ ix0 hJ i)⟩

end Cert.FiniteWeights

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibMatmulTransposed.lean ====
/-
  A matrix product whose right operand is contracted along its LAST axis — rows × contraction times
  columns × contraction, no batch axis: the product of `l` with the transpose of `r` —, read at an entry on the
  extended reals.  As a vector unit's `matmul` into a zero accumulator and as the host's `dot_general`, entry
  `(p, c)` is the sum over `k` of `l (p, k) · r (c, k)`.  Generic in the three extents.
-/
import Idealize.ShloMosaic.Lib.ValueIdx
import Idealize.ShloMosaic.PureOps.Ideal.Laws

noncomputable section

namespace Cert.LibMatmulT

open Idealize.ShloMosaic Idealize.ShloMosaic.ValueIdx
open scoped BigOperators

theorem tr_rank (M K N : ℕ) : (DotDims.transposedRhs M K N).contr.rank = 1 := rfl
theorem tr_size (M K N : ℕ) : (DotDims.transposedRhs M K N).contr.size ⟨0, by rw [tr_rank]; exact Nat.one_pos⟩ = K := rfl

/-- The left operand is read in the entry's row. -/
theorem tr_lhs0 (M K N : ℕ) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil), dif_pos (show (0 : Fin 2) ∈ (DotDims.transposedRhs M K N).lhsNonContracting from List.mem_singleton.mpr rfl)]
  rfl

/-- The right operand is read in the row numbered by the entry's column. -/
theorem tr_rhs0 (M K N : ℕ) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil), dif_pos (show (0 : Fin 2) ∈ (DotDims.transposedRhs M K N).rhsNonContracting from List.mem_singleton.mpr rfl)]
  rfl

/-- Both operands are read, along their last axis, at the contraction's one coordinate. -/
theorem tr_lhs1 (M K N : ℕ) (j : (⟨2, ![M, N]⟩ : Shape).Idx) (q : (DotDims.transposedRhs M K N).contr.Idx) :
    ((DotDims.transposedRhs M K N).lhsIdx j q 1).val = (q ⟨0, by rw [tr_rank]; exact Nat.one_pos⟩).val :=
  (DotDims.transposedRhs M K N).lhsIdx_val_of_single rfl j q

theorem tr_rhs1 (M K N : ℕ) (j : (⟨2, ![M, N]⟩ : Shape).Idx) (q : (DotDims.transposedRhs M K N).contr.Idx) :
    ((DotDims.transposedRhs M K N).rhsIdx j q 1).val = (q ⟨0, by rw [tr_rank]; exact Nat.one_pos⟩).val :=
  (DotDims.transposedRhs M K N).rhsIdx_val_of_single rfl j q

/-- The contraction of `l` with the transpose of `r`, re-indexed by the one contracted coordinate. -/
theorem tr_dot_sum (M K N : ℕ) (l : (⟨2, ![M, K]⟩ : Shape).Idx → EReal) (r : (⟨2, ![N, K]⟩ : Shape).Idx → EReal)
    (p : Fin M) (c : Fin N) :
    ∑ q : (DotDims.transposedRhs M K N).contr.Idx, l ((DotDims.transposedRhs M K N).lhsIdx (ix2 p c) q) * r ((DotDims.transposedRhs M K N).rhsIdx (ix2 p c) q)
      = ∑ k : Fin K, l (ix2 p k) * r (ix2 c k) := by
  rw [← Equiv.sum_comp (contrEquiv1 (DotDims.transposedRhs M K N) K (tr_rank M K N) (tr_size M K N)).symm]
  refine Finset.sum_congr rfl fun k _ => ?_
  have hk := contrEquiv1_symm_val (DotDims.transposedRhs M K N) K (tr_rank M K N) (tr_size M K N) k
  have el : (DotDims.transposedRhs M K N).lhsIdx (ix2 p c) ((contrEquiv1 (DotDims.transposedRhs M K N) K (tr_rank M K N) (tr_size M K N)).symm k) = ix2 p k :=
    funext fun a => Fin.ext (by
      match a with
      | ⟨0, _⟩ => exact tr_lhs0 M K N _ _
      | ⟨1, _⟩ => exact (tr_lhs1 M K N _ _).trans hk)
  have er : (DotDims.transposedRhs M K N).rhsIdx (ix2 p c) ((contrEquiv1 (DotDims.transposedRhs M K N) K (tr_rank M K N) (tr_size M K N)).symm k) = ix2 c k :=
    funext fun a => Fin.ext (by
      match a with
      | ⟨0, _⟩ => exact tr_rhs0 M K N _ _
      | ⟨1, _⟩ => exact (tr_rhs1 M K N _ _).trans hk)
  rw [el, er]

/-- A `tpu.matmul` with these dimension numbers into the zero splat, at an entry: row `p` of `l` against row `c` of `r`. -/
theorem matmul_zero_transposedRhs (M K N : ℕ) (prec : Option ContractPrecision) {φ₁ φ₂ : FTy}
    (l : FVec Ideal ⟨2, ![M, K]⟩ φ₁) (r : FVec Ideal ⟨2, ![N, K]⟩ φ₂) (p : Fin M) (c : Fin N) :
    FloatOps.matmul (DotDims.transposedRhs M K N) prec l r (constant ⟨2, ![M, N]⟩ .f32 0x00000000#32) (ix2 p c) = ∑ k : Fin K, l (ix2 p k) * r (ix2 c k) :=
  (Ideal.matmul_constant_zero_apply (DotDims.transposedRhs M K N) prec l r (ix2 p c)).trans (tr_dot_sum M K N l r p c)

/-- The host's `dot_general` with these dimension numbers, at an entry: the same sum. -/
theorem dotGeneral_transposedRhs (M K N : ℕ) (prec : Option ContractPrecision) (sched : HostSchedule) {φ₁ φ₂ : FTy}
    (l : FVec Ideal ⟨2, ![M, K]⟩ φ₁) (r : FVec Ideal ⟨2, ![N, K]⟩ φ₂) (p : Fin M) (c : Fin N) :
    FloatOps.dotGeneral (DotDims.transposedRhs M K N) prec sched l r (ix2 p c) = ∑ k : Fin K, l (ix2 p k) * r (ix2 c k) :=
  (Ideal.dotGeneral_apply (DotDims.transposedRhs M K N) prec sched l r (ix2 p c)).trans (tr_dot_sum M K N l r p c)

end Cert.LibMatmulT

end
-- ==== Proof.LibTanhSpellings.lean ====
/-
  The vector unit's and the host's spellings of the pieces of a tanh perceptron, read at an entry on the extended reals.

  * a matrix product into a zero accumulator (`tpu.matmul`) and the host's `dot_general`, with the plain dimension
    numbers, are at entry `(p, c)` the sum over `k` of `l (p, k) · r (k, c)`; the host's `dot_general` contracting the
    right operand's last axis is the sum of `l (p, k) · r (c, k)`;
  * a bias vector broadcast by the host to one row and then down the rows reads the vector at the column;
  * a tanh layer, as the vector unit spells it (operands rounded to bfloat16, the identity here; the weights already
    transposed; the bias cast to a row and repeated) and as the host spells it (the weights transposed by a
    `transpose`; the bias broadcast in two steps), is `GradientLaw.layer` of the row.
-/
import Idealize.ShloMosaic.Lib.ValueIdx
import Idealize.ShloMosaic.Lib.ValueLayout
import Idealize.ShloMosaic.Lib.Pipeline.Value
import Idealize.ShloMosaic.PureOps.Ideal.Laws
import proofs.«114070_j19816979103946_2_alg».proof.Proof.LibMlpRows
import proofs.«114070_j19816979103946_2_alg».proof.Proof.LibMatmulTransposed
import proofs.«114070_j19816979103946_2_alg».proof.Proof.LibGradientLaw

noncomputable section

namespace Cert.Spellings

open Idealize.ShloMosaic Idealize.ShloMosaic.ValueIdx Cert.GradientLaw
open scoped BigOperators

/-- A `tpu.matmul` with the plain dimension numbers into a zero accumulator, at an entry. -/
theorem matmul_plain_apply {M K N : ℕ} (d : DotDims ⟨2, ![M, K]⟩ ⟨2, ![K, N]⟩ ⟨2, ![M, N]⟩) (hd : d = DotDims.plain M K N)
    {φ₁ φ₂ : FTy} (l : FVec Ideal ⟨2, ![M, K]⟩ φ₁) (r : FVec Ideal ⟨2, ![K, N]⟩ φ₂) (p : Fin M) (c : Fin N) :
    matmul d none l r (constant ⟨2, ![M, N]⟩ .f32 0x00000000#32) (ix2 p c) = ∑ k : Fin K, l (ix2 p k) * r (ix2 k c) := by
  subst hd
  simp only [matmul, Cert.LibMlp.matmul_zero_plain]

/-- The host's `dot_general` with the plain dimension numbers, at an entry. -/
theorem hostDot_plain_apply {M K N : ℕ} (d : DotDims ⟨2, ![M, K]⟩ ⟨2, ![K, N]⟩ ⟨2, ![M, N]⟩) (hd : d = DotDims.plain M K N)
    {φ₁ φ₂ : FTy} (l : FVec Ideal ⟨2, ![M, K]⟩ φ₁) (r : FVec Ideal ⟨2, ![K, N]⟩ φ₂) (p : Fin M) (c : Fin N) :
    Host.dotGeneral d none l r (ix2 p c) = ∑ k : Fin K, l (ix2 p k) * r (ix2 k c) := by
  subst hd
  simp only [Host.dotGeneral, Cert.LibMlp.dotGeneral_plain]

/-- The host's `dot_general` contracting both operands' last axes, at an entry. -/
theorem hostDot_transposed_apply {M K N : ℕ} (d : DotDims ⟨2, ![M, K]⟩ ⟨2, ![N, K]⟩ ⟨2, ![M, N]⟩)
    (hd : d = DotDims.transposedRhs M K N) {φ₁ φ₂ : FTy} (l : FVec Ideal ⟨2, ![M, K]⟩ φ₁) (r : FVec Ideal ⟨2, ![N, K]⟩ φ₂)
    (p : Fin M) (c : Fin N) :
    Host.dotGeneral d none l r (ix2 p c) = ∑ k : Fin K, l (ix2 p k) * r (ix2 c k) := by
  subst hd
  simp only [Host.dotGeneral, Cert.LibMatmulT.dotGeneral_transposedRhs]

variable {α : Type}

/-- A vector broadcast by the host to one row, then down `R` rows, reads the vector at the column. -/
theorem bias_rows_apply {R H : ℕ} (hb : (⟨1, ![H]⟩ : Shape).BroadcastsInDim ⟨2, ![1, H]⟩ ![1])
    (hB : (⟨2, ![1, H]⟩ : Shape).BroadcastsInDim ⟨2, ![R, H]⟩ ![0, 1]) (b : (⟨1, ![H]⟩ : Shape).Idx → α) (r : Fin R) (k : Fin H) :
    broadcastInDim ⟨2, ![R, H]⟩ ![0, 1] hB (broadcastInDim ⟨2, ![1, H]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A tanh layer as the vector unit spells it, at an entry: `tanh` of the row's product with the transposed weights
    plus the bias. -/
theorem kernel_layer_apply {R I H : ℕ} (d : DotDims ⟨2, ![R, I]⟩ ⟨2, ![I, H]⟩ ⟨2, ![R, H]⟩) (hd : d = DotDims.plain R I H)
    (x : FVec Ideal ⟨2, ![R, I]⟩ .f32) (wT : FVec Ideal ⟨2, ![I, H]⟩ .bf16) (b : FVec Ideal ⟨1, ![H]⟩ .f32)
    (hw : (⟨2, ![I, H]⟩ : Shape).ShapeCasts ⟨2, ![I, H]⟩) (hb : (⟨1, ![H]⟩ : Shape).ShapeCasts ⟨2, ![1, H]⟩)
    (hB : (⟨2, ![1, H]⟩ : Shape).Broadcasts ⟨2, ![R, H]⟩) (ht : FTy.bf16.bits < FTy.f32.bits) (p : Fin R) (n : Fin H) :
    Idealize.ShloMosaic.tanh (addf (matmul d none (truncf .bf16 x ht) (shapeCast ⟨2, ![I, H]⟩ wT hw) (constant ⟨2, ![R, H]⟩ .f32 0x00000000#32))
        (broadcastTo ⟨2, ![R, H]⟩ (shapeCast ⟨2, ![1, H]⟩ b hb) hB)) (ix2 p n)
      = layer (fun k => x (ix2 p k)) (fun n k => wT (ix2 k n)) (fun n => b (ix1 n)) n := by
  subst hd
  simp only [layer, Idealize.ShloMosaic.tanh, addf_apply, matmul, Cert.LibMlp.matmul_zero_plain, truncf_apply, shapeCast_self,
    broadcastTo_1b_ab_apply, shapeCast_a_1a_apply]
  rfl

/-- A tanh layer as the host spells it, at an entry. -/
theorem host_layer_apply {R I H : ℕ} (d : DotDims ⟨2, ![R, I]⟩ ⟨2, ![I, H]⟩ ⟨2, ![R, H]⟩) (hd : d = DotDims.plain R I H)
    (x : FVec Ideal ⟨2, ![R, I]⟩ .f32) (W : FVec Ideal ⟨2, ![H, I]⟩ .f32) (b : FVec Ideal ⟨1, ![H]⟩ .f32)
    (htr : (⟨2, ![H, I]⟩ : Shape).Transposes [1, 0] ⟨2, ![I, H]⟩)
    (hb : (⟨1, ![H]⟩ : Shape).BroadcastsInDim ⟨2, ![1, H]⟩ ![1]) (hB : (⟨2, ![1, H]⟩ : Shape).BroadcastsInDim ⟨2, ![R, H]⟩ ![0, 1])
    (p : Fin R) (n : Fin H) :
    Host.tanh (addf (Host.dotGeneral d none x (transpose ⟨2, ![I, H]⟩ [1, 0] W htr))
        (broadcastInDim ⟨2, ![R, H]⟩ ![0, 1] hB (broadcastInDim ⟨2, ![1, H]⟩ ![1] hb b))) (ix2 p n)
      = layer (fun k => x (ix2 p k)) (fun n k => W (ix2 n k)) (fun n => b (ix1 n)) n := by
  subst hd
  have tW : ∀ k : Fin I, transpose ⟨2, ![I, H]⟩ [1, 0] W htr (ix2 k n) = W (ix2 n k) := fun k => transpose_ix2_apply W htr k n
  simp only [layer, Host.tanh, addf_apply, Host.dotGeneral, Cert.LibMlp.dotGeneral_plain, tW]
  rw [bias_rows_apply hb hB b p n]
  rfl

/-- The backward half as the vector unit spells it, at an entry, for any hidden activations `h0v`, `h1v` whose row
    `p` is `a`, `b`: `1 − h · h` from a splat one, the head's row of weights repeated down the rows, two matrix products
    into zero accumulators, every operand rounded to bfloat16 on the way in (the identity here). -/
theorem kernel_backward_apply {R H O : ℕ}
    (d2 : DotDims ⟨2, ![R, H]⟩ ⟨2, ![H, H]⟩ ⟨2, ![R, H]⟩) (hd2 : d2 = DotDims.plain R H H)
    (d3 : DotDims ⟨2, ![R, H]⟩ ⟨2, ![H, O]⟩ ⟨2, ![R, O]⟩) (hd3 : d3 = DotDims.plain R H O)
    (h0v h1v : FVec Ideal ⟨2, ![R, H]⟩ .f32) (w1 : FVec Ideal ⟨2, ![H, H]⟩ .bf16) (wout : FVec Ideal ⟨2, ![1, H]⟩ .f32)
    (A : FVec Ideal ⟨2, ![H, O]⟩ .bf16)
    (c2 : (⟨2, ![H, H]⟩ : Shape).ShapeCasts ⟨2, ![H, H]⟩) (c3 : (⟨2, ![H, O]⟩ : Shape).ShapeCasts ⟨2, ![H, O]⟩)
    (hB : (⟨2, ![1, H]⟩ : Shape).Broadcasts ⟨2, ![R, H]⟩) (ht : FTy.bf16.bits < FTy.f32.bits)
    (a b : Fin H → EReal) (p : Fin R) (ha : ∀ n, h0v (ix2 p n) = a n) (hb : ∀ n, h1v (ix2 p n) = b n) (j : Fin O) :
    matmul d3 none
        (truncf .bf16 (mulf (subf (broadcast ⟨2, ![R, H]⟩ (Scalar.ofBits .f32 0x3F800000#32)) (mulf h0v h0v))
          (matmul d2 none
            (truncf .bf16 (mulf (subf (broadcast ⟨2, ![R, H]⟩ (Scalar.ofBits .f32 0x3F800000#32)) (mulf h1v h1v))
              (broadcastTo ⟨2, ![R, H]⟩ wout hB)) ht)
            (shapeCast ⟨2, ![H, H]⟩ w1 c2) (constant ⟨2, ![R, H]⟩ .f32 0x00000000#32))) ht)
        (shapeCast ⟨2, ![H, O]⟩ A c3) (constant ⟨2, ![R, O]⟩ .f32 0x00000000#32) (ix2 p j)
      = rotatedFirst (Ideal.ofBits .f32 0x3F800000#32) a b (fun n => wout (ix2 (0 : Fin 1) n)) (fun m n => w1 (ix2 m n))
          (fun n j => A (ix2 n j)) j := by
  subst hd2 hd3
  simp only [rotatedFirst, cotangent, matmul, Cert.LibMlp.matmul_zero_plain, truncf_apply, mulf_apply, subf_apply, broadcast_apply,
    broadcastTo_1b_ab_apply, shapeCast_self, ha, hb]
  rfl

/-- The backward half as reverse-mode differentiation spells it on the host, at an entry, for any hidden activations
    `h0v`, `h1v` whose row `p` is `a`, `b`: the head's cotangent is a column of ones contracted with the transposed head
    weights over the one output unit; each tanh derivative is `c · (1 − h) + c · (1 − h) · h` with a broadcast one; the
    weight matrices enter transposed and contracted along their last axes; the rotation is the last product. -/
theorem host_backward_apply {R I H O : ℕ}
    (dA : DotDims ⟨2, ![R, 1]⟩ ⟨2, ![H, 1]⟩ ⟨2, ![R, H]⟩) (hdA : dA = DotDims.transposedRhs R 1 H)
    (dB : DotDims ⟨2, ![R, H]⟩ ⟨2, ![H, H]⟩ ⟨2, ![R, H]⟩) (hdB : dB = DotDims.transposedRhs R H H)
    (dC : DotDims ⟨2, ![R, H]⟩ ⟨2, ![I, H]⟩ ⟨2, ![R, I]⟩) (hdC : dC = DotDims.transposedRhs R H I)
    (dD : DotDims ⟨2, ![R, I]⟩ ⟨2, ![I, O]⟩ ⟨2, ![R, O]⟩) (hdD : dD = DotDims.plain R I O)
    (h0v h1v : FVec Ideal ⟨2, ![R, H]⟩ .f32) (W0 : FVec Ideal ⟨2, ![H, I]⟩ .f32) (W1 : FVec Ideal ⟨2, ![H, H]⟩ .f32)
    (Wout : FVec Ideal ⟨2, ![1, H]⟩ .f32) (J : FVec Ideal ⟨2, ![O, I]⟩ .f32)
    (tr0 : (⟨2, ![H, I]⟩ : Shape).Transposes [1, 0] ⟨2, ![I, H]⟩) (tr1 : (⟨2, ![H, H]⟩ : Shape).Transposes [1, 0] ⟨2, ![H, H]⟩)
    (trW : (⟨2, ![1, H]⟩ : Shape).Transposes [1, 0] ⟨2, ![H, 1]⟩) (trJ : (⟨2, ![O, I]⟩ : Shape).Transposes [1, 0] ⟨2, ![I, O]⟩)
    (bz : (⟨0, ![]⟩ : Shape).BroadcastsInDim ⟨2, ![R, H]⟩ ![]) (bv : (⟨0, ![]⟩ : Shape).BroadcastsInDim ⟨1, ![R]⟩ ![])
    (bc : (⟨1, ![R]⟩ : Shape).BroadcastsInDim ⟨2, ![R, 1]⟩ ![0])
    (a b : Fin H → EReal) (p : Fin R) (ha : ∀ n, h0v (ix2 p n) = a n) (hb : ∀ n, h1v (ix2 p n) = b n) (j : Fin O) :
    Host.dotGeneral dD none
        (Host.dotGeneral dC none
          (addf
            (mulf (Host.dotGeneral dB none
                (addf
                  (mulf (Host.dotGeneral dA none
                      (broadcastInDim ⟨2, ![R, 1]⟩ ![0] bc (broadcastInDim ⟨1, ![R]⟩ ![] bv (constant (F := Ideal) ⟨0, ![]⟩ .f32 0x3F800000#32)))
                      (transpose ⟨2, ![H, 1]⟩ [1, 0] Wout trW))
                    (subf (broadcastInDim ⟨2, ![R, H]⟩ ![] bz (constant (F := Ideal) ⟨0, ![]⟩ .f32 0x3F800000#32)) h1v))
                  (mulf
                    (mulf (Host.dotGeneral dA none
                        (broadcastInDim ⟨2, ![R, 1]⟩ ![0] bc (broadcastInDim ⟨1, ![R]⟩ ![] bv (constant (F := Ideal) ⟨0, ![]⟩ .f32 0x3F800000#32)))
                        (transpose ⟨2, ![H, 1]⟩ [1, 0] Wout trW))
                      (subf (broadcastInDim ⟨2, ![R, H]⟩ ![] bz (constant (F := Ideal) ⟨0, ![]⟩ .f32 0x3F800000#32)) h1v))
                    h1v))
                (transpose ⟨2, ![H, H]⟩ [1, 0] W1 tr1))
              (subf (broadcastInDim ⟨2, ![R, H]⟩ ![] bz (constant (F := Ideal) ⟨0, ![]⟩ .f32 0x3F800000#32)) h0v))
            (mulf
              (mulf (Host.dotGeneral dB none
                  (addf
                    (mulf (Host.dotGeneral dA none
                        (broadcastInDim ⟨2, ![R, 1]⟩ ![0] bc (broadcastInDim ⟨1, ![R]⟩ ![] bv (constant (F := Ideal) ⟨0, ![]⟩ .f32 0x3F800000#32)))
                        (transpose ⟨2, ![H, 1]⟩ [1, 0] Wout trW))
                      (subf (broadcastInDim ⟨2, ![R, H]⟩ ![] bz (constant (F := Ideal) ⟨0, ![]⟩ .f32 0x3F800000#32)) h1v))
                    (mulf
                      (mulf (Host.dotGeneral dA none
                          (broadcastInDim ⟨2, ![R, 1]⟩ ![0] bc (broadcastInDim ⟨1, ![R]⟩ ![] bv (constant (F := Ideal) ⟨0, ![]⟩ .f32 0x3F800000#32)))
                          (transpose ⟨2, ![H, 1]⟩ [1, 0] Wout trW))
                        (subf (broadcastInDim ⟨2, ![R, H]⟩ ![] bz (constant (F := Ideal) ⟨0, ![]⟩ .f32 0x3F800000#32)) h1v))
                      h1v))
                  (transpose ⟨2, ![H, H]⟩ [1, 0] W1 tr1))
                (subf (broadcastInDim ⟨2, ![R, H]⟩ ![] bz (constant (F := Ideal) ⟨0, ![]⟩ .f32 0x3F800000#32)) h0v))
              h0v))
          (transpose ⟨2, ![I, H]⟩ [1, 0] W0 tr0))
        (transpose ⟨2, ![I, O]⟩ [1, 0] J trJ) (ix2 p j)
      = rotatedLast (Ideal.ofBits .f32 0x3F800000#32) a b (fun n => Wout (ix2 (0 : Fin 1) n)) (fun m n => W1 (ix2 m n))
          (fun n k => W0 (ix2 n k)) (fun j k => J (ix2 j k)) j := by
  subst hdA hdB hdC hdD
  have t0 : ∀ (k : Fin I) (n : Fin H), transpose ⟨2, ![I, H]⟩ [1, 0] W0 tr0 (ix2 k n) = W0 (ix2 n k) := fun k n => transpose_ix2_apply W0 tr0 k n
  have t1 : ∀ (n m : Fin H), transpose ⟨2, ![H, H]⟩ [1, 0] W1 tr1 (ix2 n m) = W1 (ix2 m n) := fun n m => transpose_ix2_apply W1 tr1 n m
  have tW : ∀ (n : Fin H) (u : Fin 1), transpose ⟨2, ![H, 1]⟩ [1, 0] Wout trW (ix2 n u) = Wout (ix2 u n) := fun n u => transpose_ix2_apply Wout trW n u
  have tJ : ∀ (k : Fin I) (j : Fin O), transpose ⟨2, ![I, O]⟩ [1, 0] J trJ (ix2 k j) = J (ix2 j k) := fun k j => transpose_ix2_apply J trJ k j
  have one1 : ∀ i, broadcastInDim ⟨2, ![R, H]⟩ ![] bz (constant (F := Ideal) ⟨0, ![]⟩ .f32 0x3F800000#32) i = Ideal.ofBits .f32 0x3F800000#32 := fun _ => rfl
  have one2 : ∀ i, broadcastInDim ⟨2, ![R, 1]⟩ ![0] bc (broadcastInDim ⟨1, ![R]⟩ ![] bv (constant (F := Ideal) ⟨0, ![]⟩ .f32 0x3F800000#32)) i
      = Ideal.ofBits .f32 0x3F800000#32 := fun _ => rfl
  simp only [rotatedLast, Host.dotGeneral, Cert.LibMlp.dotGeneral_plain, Cert.LibMatmulT.dotGeneral_transposedRhs, addf_apply,
    mulf_apply, subf_apply, t0, t1, tW, tJ, one1, one2, ha, hb, Fin.sum_univ_one]

end Cert.Spellings

end
-- ==== Proof.KernelBody.lean ====
/-
  The kernel body's one stored value, read at an entry on the extended reals.

  The body computes, for the 5000 rows of its input block at once, the two tanh layers (weights already transposed, so
  the products are plain), the cotangents `(1 − h1 · h1) · wout` and `(1 − h0 · h0) · (g1 · W1)`, and the product of
  the latter with the matrix `A` it is handed.  Entry `(p, j)` therefore depends on row `p` of the input block only, and
  is `GradientLaw.rotatedFirst` of that row's two layers.
-/
import proofs.«114070_j19816979103946_2_alg».proof.Proof.Gen.KernelIdeal.Skeleton
import proofs.«114070_j19816979103946_2_alg».proof.Proof.LibTanhSpellings

noncomputable section

namespace Cert.KernelBody

open Cert.KernelIdeal Cert.KernelIdeal.Gen Idealize.ShloMosaic Idealize.ShloMosaic.ValueIdx Cert.GradientLaw Cert.Spellings
open scoped BigOperators

/-- Entry `(p, j)` of the body's stored value: the rotated gradient of row `p`, from the loaded blocks. -/
theorem payload_apply (v0 : FVec Ideal S5000x32 .f32) (v1 : FVec Ideal S32x128 .bf16) (v3 : FVec Ideal S128 .f32)
    (v4 : FVec Ideal S128x128 .bf16) (v6 : FVec Ideal S128 .f32) (v7 : FVec Ideal S128x128 .bf16)
    (v9 : FVec Ideal S1x128 .f32) (v10 : FVec Ideal S128x32 .bf16) (p : Fin 5000) (j : Fin 32) :
    k0_pay1 (F := Ideal) v0 v1 v3 v4 v6 v7 v9 v10 (ix2 p j)
      = rotatedFirst (Ideal.ofBits .f32 0x3F800000#32)
          (layer (fun k => v0 (ix2 p k)) (fun n k => v1 (ix2 k n)) (fun n => v3 (ix1 n)))
          (layer (layer (fun k => v0 (ix2 p k)) (fun n k => v1 (ix2 k n)) (fun n => v3 (ix1 n)))
            (fun n m => v4 (ix2 m n)) (fun n => v6 (ix1 n)))
          (fun n => v9 (ix2 (0 : Fin 1) n)) (fun m n => v7 (ix2 m n)) (fun n j => v10 (ix2 n j)) j := by
  unfold k0_pay1
  refine kernel_backward_apply dot_S5000x128_S128x128_S5000x128_1_0_0_1_n_n rfl dot_S5000x128_S128x32_S5000x32_1_0_0_1_n_n rfl
    _ _ v7 v9 v10 _ _ _ _ _ _ p ?_ ?_ j
  · intro n
    exact kernel_layer_apply dot_S5000x32_S32x128_S5000x128_1_0_0_1_n_n rfl v0 v1 v3 _ _ _ _ p n
  · intro n
    refine (kernel_layer_apply dot_S5000x128_S128x128_S5000x128_1_0_0_1_n_n rfl _ v4 v6 _ _ _ _ p n).trans ?_
    congr 1
    funext m
    exact kernel_layer_apply dot_S5000x32_S32x128_S5000x128_1_0_0_1_n_n rfl v0 v1 v3 _ _ _ _ p m

end Cert.KernelBody

end
-- ==== Proof.KernelValue.lean ====
/-
  The kernel's result array after the run, as one function of the argument arrays.

  The grid has 100 points; point `t` reads rows `5000 t … 5000 t + 4999` of the input and writes the same rows of the
  result, and every other operand is one block read whole at every point.  Four of those operands are computed on the
  host before the launch: `W0` transposed, `W1` transposed, `W1` itself, and the matrix `A = W0 · Jᵀ`, each then rounded
  to bfloat16 (the identity on the extended reals).  So entry `(5000 t + p, j)` of the result is the rotated gradient of
  row `5000 t + p` of the input (`KernelBody.payload_apply`), the 100 blocks of rows cover the array, and the array ends
  holding `GradientLaw.gradientArray` of the arguments.
-/
import proofs.«114070_j19816979103946_2_alg».proof.Proof.Gen.KernelIdeal.Value
import proofs.«114070_j19816979103946_2_alg».proof.Proof.KernelBody
import Idealize.ShloMosaic.Lib.StableHlo.Run
import Idealize.ShloMosaic.Lib.Pipeline.Value
import Idealize.ShloMosaic.Lib.ValueLayout

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx Cert.GradientLaw Cert.Spellings
open Idealize.ShloMosaic.Pipeline (Dat)
open scoped BigOperators

variable (m : (ℓ : Loc nD τ sig) → Buf (Elt Ideal) ℓ) (ρ : Dev nD → PrngReg)

/-- The argument arrays on core `c`, as launched: the inputs `x`, the weights and biases, the rotation. -/
abbrev argX (c : Dev nD) : FVec Ideal S500000x32 .f32 := m ((c : Thread nD τ).loc main_arg1)
abbrev argW0 (c : Dev nD) : FVec Ideal S128x32 .f32 := m ((c : Thread nD τ).loc main_arg2)
abbrev argB0 (c : Dev nD) : FVec Ideal S128 .f32 := m ((c : Thread nD τ).loc main_arg3)
abbrev argW1 (c : Dev nD) : FVec Ideal S128x128 .f32 := m ((c : Thread nD τ).loc main_arg4)
abbrev argB1 (c : Dev nD) : FVec Ideal S128 .f32 := m ((c : Thread nD τ).loc main_arg5)
abbrev argWout (c : Dev nD) : FVec Ideal S1x128 .f32 := m ((c : Thread nD τ).loc main_arg6)
abbrev argJ (c : Dev nD) : FVec Ideal S32x32 .f32 := m ((c : Thread nD τ).loc main_arg8)

/-- The four operands the host prepares, as the region finds them. -/
abbrev opW0T (c : Dev nD) : FVec Ideal S32x128 .bf16 := V m c main_v4
abbrev opW1T (c : Dev nD) : FVec Ideal S128x128 .bf16 := V m c main_v5
abbrev opW1 (c : Dev nD) : FVec Ideal S128x128 .bf16 := V m c main_v6
abbrev opA (c : Dev nD) : FVec Ideal S128x32 .bf16 := V m c main_v7

/-- The result array as a function of the arguments: the gradient array of `x` with the weights `W0, b0, W1, b1, Wout`
    and the rotation `J`. -/
def result (c : Dev nD) : S500000x32.Idx → EReal :=
  gradientArray (Ideal.ofBits .f32 0x3F800000#32) (argX m c) (argW0 m c) (argB0 m c) (argW1 m c) (argB1 m c) (argWout m c) (argJ m c)

/-! ## The operands the host prepares -/

/-- The first layer's weights as the region finds them: `W0` transposed. -/
theorem V_w0t (c : Dev nD) : opW0T m c
    = truncf .bf16 (transpose S32x128 [1, 0] (argW0 m c) transposes_S128x32_S32x128_1_0) bitsLt_bf16_f32 := by
  show V m c main_v4 = _
  unfold V; after_results

/-- The second layer's weights as the region finds them: `W1` transposed. -/
theorem V_w1t (c : Dev nD) : opW1T m c
    = truncf .bf16 (transpose S128x128 [1, 0] (argW1 m c) transposes_S128x128_S128x128_1_0) bitsLt_bf16_f32 := by
  show V m c main_v5 = _
  unfold V; after_results

/-- `W1` itself, for the backward product. -/
theorem V_w1 (c : Dev nD) : opW1 m c = truncf .bf16 (argW1 m c) bitsLt_bf16_f32 := by
  show V m c main_v6 = _
  unfold V; after_results

/-- The rotation folded into the first layer's weights: `W0 · Jᵀ`. -/
theorem V_a (c : Dev nD) : opA m c
    = truncf .bf16 (Host.dotGeneral dot_S128x32_S32x32_S128x32_1_0_0_1_n_n none (argW0 m c)
        (transpose S32x32 [1, 0] (argJ m c) transposes_S32x32_S32x32_1_0)) bitsLt_bf16_f32 := by
  show V m c main_v7 = _
  unfold V; after_results

theorem V_w0t_apply (c : Dev nD) (k : Fin 32) (n : Fin 128) : opW0T m c (ix2 k n) = argW0 m c (ix2 n k) := by
  rw [V_w0t]
  exact transpose_ix2_apply _ _ k n

theorem V_w1t_apply (c : Dev nD) (a b : Fin 128) : opW1T m c (ix2 a b) = argW1 m c (ix2 b a) := by
  rw [V_w1t]
  exact transpose_ix2_apply _ _ a b

theorem V_w1_apply (c : Dev nD) (i : S128x128.Idx) : opW1 m c i = argW1 m c i := by
  rw [V_w1]
  rfl

theorem V_a_apply (c : Dev nD) (n : Fin 128) (j : Fin 32) :
    opA m c (ix2 n j) = ∑ k : Fin 32, argW0 m c (ix2 n k) * argJ m c (ix2 j k) := by
  rw [V_a]
  refine (hostDot_plain_apply dot_S128x32_S32x32_S128x32_1_0_0_1_n_n rfl _ _ n j).trans ?_
  exact Finset.sum_congr rfl fun k _ => congrArg (_ * ·) (transpose_ix2_apply _ _ k j)

/-! ## The blocks at a grid point -/

/-- The printed index maps over the 100 grid points: the input and the result move one block of rows per point, every
    other operand stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The input block at point `t` is rows `5000 t …` of `x`. -/
theorem blk_x (c : Dev nD) (t : Fin cfg0.N) (p : Fin 5000) (k : Fin 32) (hp : 5000 * t.val + p.val < 500000) :
    (iblk m c 0 t : FVec Ideal S5000x32 .f32) (ix2 p k) = argX m c (ix2 ⟨5000 * t.val + p.val, hp⟩ k) := by
  obtain ⟨e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 32 + 1 * k.val = k.val; rw [e1]; omega

theorem blk_w0t (c : Dev nD) (t : Fin cfg0.N) (k : Fin 32) (n : Fin 128) :
    (iblk m c 1 t : FVec Ideal S32x128 .bf16) (ix2 k n) = opW0T m c (ix2 k n) := by
  obtain ⟨-, -, e0, e1, -⟩ := idx_facts t
  unfold iblk
  rw [View.read_apply]
  show V m c main_v4 _ = V m c main_v4 _
  congr 1
  funext a
  apply Fin.ext
  match a with
  | ⟨0, _⟩ => show win0_1.index t (0 : Fin 2) * 32 + 1 * k.val = k.val; rw [e0]; omega
  | ⟨1, _⟩ => show win0_1.index t (1 : Fin 2) * 128 + 1 * n.val = n.val; rw [e1]; omega

theorem blk_b0 (c : Dev nD) (t : Fin cfg0.N) (n : Fin 128) :
    (iblk m c 2 t : FVec Ideal S128 .f32) (ix1 n) = argB0 m c (ix1 n) := by
  obtain ⟨-, -, -, -, e0, -⟩ := idx_facts t
  unfold iblk
  rw [View.read_apply]
  show V m c main_arg3 _ = m ((c : Thread nD τ).loc main_arg3) _
  rw [V_main_arg3]
  congr 1
  funext a
  apply Fin.ext
  match a with
  | ⟨0, _⟩ => show win0_2.index t (0 : Fin 1) * 128 + 1 * n.val = n.val; rw [e0]; omega

theorem blk_w1t (c : Dev nD) (t : Fin cfg0.N) (a b : Fin 128) :
    (iblk m c 3 t : FVec Ideal S128x128 .bf16) (ix2 a b) = opW1T m c (ix2 a b) := by
  obtain ⟨-, -, -, -, -, e0, e1, -⟩ := idx_facts t
  unfold iblk
  rw [View.read_apply]
  show V m c main_v5 _ = V m c main_v5 _
  congr 1
  funext ax
  apply Fin.ext
  match ax with
  | ⟨0, _⟩ => show win0_3.index t (0 : Fin 2) * 128 + 1 * a.val = a.val; rw [e0]; omega
  | ⟨1, _⟩ => show win0_3.index t (1 : Fin 2) * 128 + 1 * b.val = b.val; rw [e1]; omega

theorem blk_b1 (c : Dev nD) (t : Fin cfg0.N) (n : Fin 128) :
    (iblk m c 4 t : FVec Ideal S128 .f32) (ix1 n) = argB1 m c (ix1 n) := by
  obtain ⟨-, -, -, -, -, -, -, e0, -⟩ := idx_facts t
  unfold iblk
  rw [View.read_apply]
  show V m c main_arg5 _ = m ((c : Thread nD τ).loc main_arg5) _
  rw [V_main_arg5]
  congr 1
  funext a
  apply Fin.ext
  match a with
  | ⟨0, _⟩ => show win0_4.index t (0 : Fin 1) * 128 + 1 * n.val = n.val; rw [e0]; omega

theorem blk_w1 (c : Dev nD) (t : Fin cfg0.N) (a b : Fin 128) :
    (iblk m c 5 t : FVec Ideal S128x128 .bf16) (ix2 a b) = opW1 m c (ix2 a b) := by
  obtain ⟨-, -, -, -, -, -, -, -, e0, e1, -⟩ := idx_facts t
  unfold iblk
  rw [View.read_apply]
  show V m c main_v6 _ = V m c main_v6 _
  congr 1
  funext ax
  apply Fin.ext
  match ax with
  | ⟨0, _⟩ => show win0_5.index t (0 : Fin 2) * 128 + 1 * a.val = a.val; rw [e0]; omega
  | ⟨1, _⟩ => show win0_5.index t (1 : Fin 2) * 128 + 1 * b.val = b.val; rw [e1]; omega

theorem blk_wout (c : Dev nD) (t : Fin cfg0.N) (u : Fin 1) (n : Fin 128) :
    (iblk m c 6 t : FVec Ideal S1x128 .f32) (ix2 u n) = argWout m c (ix2 u n) := by
  obtain ⟨-, -, -, -, -, -, -, -, -, -, e0, e1, -⟩ := idx_facts t
  unfold iblk
  rw [View.read_apply]
  show V m c main_arg6 _ = m ((c : Thread nD τ).loc main_arg6) _
  rw [V_main_arg6]
  congr 1
  funext a
  apply Fin.ext
  match a with
  | ⟨0, _⟩ => show win0_6.index t (0 : Fin 2) * 1 + 1 * u.val = u.val; rw [e0]; omega
  | ⟨1, _⟩ => show win0_6.index t (1 : Fin 2) * 128 + 1 * n.val = n.val; rw [e1]; omega

theorem blk_a (c : Dev nD) (t : Fin cfg0.N) (n : Fin 128) (j : Fin 32) :
    (iblk m c 7 t : FVec Ideal S128x32 .bf16) (ix2 n j) = opA m c (ix2 n j) := by
  obtain ⟨-, -, -, -, -, -, -, -, -, -, -, -, e0, e1, -⟩ := idx_facts t
  unfold iblk
  rw [View.read_apply]
  show V m c main_v7 _ = V m c main_v7 _
  congr 1
  funext a
  apply Fin.ext
  match a with
  | ⟨0, _⟩ => show win0_7.index t (0 : Fin 2) * 128 + 1 * n.val = n.val; rw [e0]; omega
  | ⟨1, _⟩ => show win0_7.index t (1 : Fin 2) * 32 + 1 * j.val = j.val; rw [e1]; omega

/-! ## One point's block of the result -/

/-- For blocks that read the arrays as the 100-point schedule does — the input block rows `5000 T …` of `X`, the weight
    blocks the prepared operands — the body's value at `y` is the gradient array at the entry `i` that sits `5000 T` rows
    further down. -/
theorem block_value (X : FVec Ideal S500000x32 .f32) (W0 : FVec Ideal S128x32 .f32) (b0 : FVec Ideal S128 .f32)
    (W1 : FVec Ideal S128x128 .f32) (b1 : FVec Ideal S128 .f32) (Wout : FVec Ideal S1x128 .f32) (J : FVec Ideal S32x32 .f32)
    (x0 : FVec Ideal S5000x32 .f32) (x1 : FVec Ideal S32x128 .bf16) (x2 : FVec Ideal S128 .f32) (x3 : FVec Ideal S128x128 .bf16)
    (x4 : FVec Ideal S128 .f32) (x5 : FVec Ideal S128x128 .bf16) (x6 : FVec Ideal S1x128 .f32) (x7 : FVec Ideal S128x32 .bf16)
    (T : ℕ)
    (h0 : ∀ (p : Fin 5000) (k : Fin 32) (hp : 5000 * T + p.val < 500000), x0 (ix2 p k) = X (ix2 ⟨5000 * T + p.val, hp⟩ k))
    (h1 : ∀ (k : Fin 32) (n : Fin 128), x1 (ix2 k n) = W0 (ix2 n k))
    (h2 : ∀ n : Fin 128, x2 (ix1 n) = b0 (ix1 n))
    (h3 : ∀ a b : Fin 128, x3 (ix2 a b) = W1 (ix2 b a))
    (h4 : ∀ n : Fin 128, x4 (ix1 n) = b1 (ix1 n))
    (h5 : ∀ a b : Fin 128, x5 (ix2 a b) = W1 (ix2 a b))
    (h6 : ∀ n : Fin 128, x6 (ix2 (0 : Fin 1) n) = Wout (ix2 (0 : Fin 1) n))
    (h7 : ∀ (n : Fin 128) (j : Fin 32), x7 (ix2 n j) = ∑ k : Fin 32, W0 (ix2 n k) * J (ix2 j k))
    (y : S5000x32.Idx) (i : S500000x32.Idx) (hi0 : (i 0).val = 5000 * T + (y 0).val) (hi1 : (i 1).val = (y 1).val) :
    k0_pay1 (F := Ideal) x0 x1 x2 x3 x4 x5 x6 x7 y
      = gradientArray (Ideal.ofBits .f32 0x3F800000#32) X W0 b0 W1 b1 Wout J i := by
  obtain ⟨p, j, rfl⟩ : ∃ (p : Fin 5000) (j : Fin 32), y = ix2 p j := ⟨y 0, y 1, eq_ix2 y⟩
  obtain ⟨r, j', rfl⟩ : ∃ (r : Fin 500000) (j' : Fin 32), i = ix2 r j' := ⟨i 0, i 1, eq_ix2 i⟩
  have hr : 5000 * T + p.val < 500000 := by have := r.isLt; have h : r.val = 5000 * T + p.val := hi0; omega
  obtain rfl : r = ⟨5000 * T + p.val, hr⟩ := Fin.ext hi0
  obtain rfl : j' = j := Fin.ext hi1
  have h0' : ∀ k : Fin 32, x0 (ix2 p k) = X (ix2 ⟨5000 * T + p.val, hr⟩ k) := fun k => h0 p k hr
  rw [Cert.KernelBody.payload_apply, gradientArray_ix2]
  unfold rowGradient
  simp only [h0', h1, h2, h3, h4, h5, h6, h7]

/-- The all-zero offsets of a whole-block access. -/
theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of `result`. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz2]
  simp only [View.ld_unit_zero (S := S5000x32) hz2, View.ld_unit_zero (S := S32x128) hz2, View.ld_unit_zero (S := S128) hz1,
    View.ld_unit_zero (S := S128x128) hz2, View.ld_unit_zero (S := S1x128) hz2, View.ld_unit_zero (S := S128x32) hz2]
  obtain ⟨-, -, -, -, -, -, -, -, -, -, -, -, -, -, e0, e1⟩ := idx_facts t
  funext y
  show k0_pay1 (F := Ideal) (iblk m c 0 t) (iblk m c 1 t) (iblk m c 2 t) (iblk m c 3 t) (iblk m c 4 t) (iblk m c 5 t) (iblk m c 6 t) (iblk m c 7 t) y
      = result m c (((cfg0.win 8).blk t).view.emb y)
  unfold result
  refine block_value _ _ _ _ _ _ _ (iblk m c 0 t) (iblk m c 1 t) (iblk m c 2 t) (iblk m c 3 t) (iblk m c 4 t) (iblk m c 5 t) (iblk m c 6 t) (iblk m c 7 t)
    t.val (fun p k hp => blk_x m c t p k hp) (fun k n => (blk_w0t m c t k n).trans (V_w0t_apply m c k n))
    (fun n => blk_b0 m c t n) (fun a b => (blk_w1t m c t a b).trans (V_w1t_apply m c a b)) (fun n => blk_b1 m c t n)
    (fun a b => (blk_w1 m c t a b).trans (V_w1_apply m c _)) (fun n => blk_wout m c t 0 n)
    (fun n j => (blk_a m c t n j).trans (V_a_apply m c n j)) y _ ?_ ?_
  · show win0_8.index t (0 : Fin 2) * 5000 + 1 * (y 0).val = 5000 * t.val + (y 0).val
    rw [e0]; omega
  · show win0_8.index t (1 : Fin 2) * 32 + 1 * (y 1).val = (y 1).val
    rw [e1]; omega

/-! ## The blocks cover the array -/

theorem mem_blk (t : Fin cfg0.N) (i : S500000x32.Idx) :
    i ∈ ((cfg0.win 8).blk t).view.set ↔ ∀ a : Fin 2, win0_8.index t a * S5000x32.size a ≤ (i a).val
      ∧ (i a).val < win0_8.index t a * S5000x32.size a + S5000x32.size a := by
  show i ∈ ((View.whole main_v8).slice (win0_8.rect t)).set ↔ _
  rw [View.set_slice_whole, Rect.mem_set_unit]
  exact Iff.rfl

/-- Row `r` of the result is written by point `r / 5000`. -/
theorem cover (i : S500000x32.Idx) : ∃ t : Fin cfg0.N, (cfg0.win 8).flush t = true ∧ i ∈ ((cfg0.win 8).blk t).view.set := by
  have hi0 : (i 0).val < 500000 := (i 0).isLt
  have hi1 : (i 1).val < 32 := (i 1).isLt
  have hN : cfg0.N = 100 := N_0
  let t : Fin cfg0.N := ⟨(i 0).val / 5000, by rw [hN]; omega⟩
  have ht : t.val = (i 0).val / 5000 := rfl
  obtain ⟨-, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 32 ≤ (i 1).val ∧ (i 1).val < win0_8.index t (1 : Fin 2) * 32 + 32
    rw [e1]; omega

/-- The result array after the run. -/
theorem final (c : Dev nD) : (dats m 0 c).arrAt 8 cfg0.N = result m c :=
  (dats m 0 c).arrAt_eq_of_cover 8 (result m c) (fun t _ => flushed_eq m c t) cover

/-- The kernel's run: the result array ends at `result`, the arguments as launched. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelValue

end
-- ==== Proof.ReferenceValue.lean ====
/-
  The reference's result, read at an entry on the extended reals.

  The reference differentiates the perceptron's summed head in reverse mode and rotates the gradient last.  Its forward
  pass is the two tanh layers; its backward pass, for entry `(p, j)`, reads row `p` of the two layers only, and is
  `GradientLaw.rotatedLast` of them: `GradientLaw.rowGradientReverse` of row `p` of the input.
-/
import proofs.«114070_j19816979103946_2_alg».proof.Proof.Gen.ReferenceIdeal.Read
import proofs.«114070_j19816979103946_2_alg».proof.Proof.LibTanhSpellings

noncomputable section

namespace Cert.ReferenceValue

open Cert.ReferenceIdeal Cert.ReferenceIdeal.Gen Cert.ReferenceIdeal.Read Idealize.ShloMosaic Idealize.ShloMosaic.ValueIdx
open Cert.GradientLaw Cert.Spellings
open scoped BigOperators

/-- The first tanh layer at an entry. -/
theorem hidden0_apply (x1 : FVec Ideal S500000x32 .f32) (x2 : FVec Ideal S128x32 .f32) (x3 : FVec Ideal S128 .f32)
    (p : Fin 500000) (n : Fin 128) :
    val_main_v5 (F := Ideal) x1 x2 x3 (ix2 p n)
      = layer (fun k => x1 (ix2 p k)) (fun n k => x2 (ix2 n k)) (fun n => x3 (ix1 n)) n := by
  unfold val_main_v5 val_main_v4 val_main_v3 val_main_v2 val_main_v1 val_main_v0
  exact host_layer_apply dot_S500000x32_S32x128_S500000x128_1_0_0_1_n_n rfl x1 x2 x3 _ _ _ p n

/-- The second tanh layer at an entry: the layer of the first layer's row. -/
theorem hidden1_apply (x1 : FVec Ideal S500000x32 .f32) (x2 : FVec Ideal S128x32 .f32) (x3 : FVec Ideal S128 .f32)
    (x4 : FVec Ideal S128x128 .f32) (x5 : FVec Ideal S128 .f32) (p : Fin 500000) (n : Fin 128) :
    val_main_v13 (F := Ideal) x1 x2 x3 x4 x5 (ix2 p n)
      = layer (layer (fun k => x1 (ix2 p k)) (fun n k => x2 (ix2 n k)) (fun n => x3 (ix1 n)))
          (fun n m => x4 (ix2 n m)) (fun n => x5 (ix1 n)) n := by
  unfold val_main_v13 val_main_v12 val_main_v11 val_main_v10 val_main_v9 val_main_v8
  refine (host_layer_apply dot_S500000x128_S128x128_S500000x128_1_0_0_1_n_n rfl (val_main_v5 (F := Ideal) x1 x2 x3) x4 x5 _ _ _ p n).trans ?_
  congr 1
  funext m
  exact hidden0_apply x1 x2 x3 p m

/-- The reference's result at entry `(p, j)`: the reverse-mode arrangement of row `p`'s rotated gradient. -/
theorem result_apply (x1 : FVec Ideal S500000x32 .f32) (x2 : FVec Ideal S128x32 .f32) (x3 : FVec Ideal S128 .f32)
    (x4 : FVec Ideal S128x128 .f32) (x5 : FVec Ideal S128 .f32) (x6 : FVec Ideal S1x128 .f32) (x8 : FVec Ideal S32x32 .f32)
    (p : Fin 500000) (j : Fin 32) :
    val_main_v35 (F := Ideal) x1 x2 x3 x4 x5 x6 x8 (ix2 p j)
      = rowGradientReverse (Ideal.ofBits .f32 0x3F800000#32) (fun k => x1 (ix2 p k)) x2 x3 x4 x5 x6 x8 j := by
  unfold val_main_v35 val_main_v34 val_main_v33 val_main_v32 val_main_v31 val_main_v30 val_main_v29 val_main_v28 val_main_v27
    val_main_v26 val_main_v25 val_main_v24 val_main_v23 val_main_cst_2 val_main_v16 val_main_v15 val_main_v14 val_main_cst_0
    val_main_v8 val_main_v7 val_main_v6 val_main_cst val_main_v0
  exact host_backward_apply dot_S500000x1_S128x1_S500000x128_1_1_0_0_n_n rfl dot_S500000x128_S128x128_S500000x128_1_1_0_0_n_n rfl
    dot_S500000x128_S32x128_S500000x32_1_1_0_0_n_n rfl dot_S500000x32_S32x32_S500000x32_1_0_0_1_n_n rfl
    (val_main_v5 (F := Ideal) x1 x2 x3) (val_main_v13 (F := Ideal) x1 x2 x3 x4 x5) x2 x4 x6 x8 _ _ _ _ _ _ _ _ _ p
    (hidden0_apply x1 x2 x3 p) (hidden1_apply x1 x2 x3 x4 x5 p) j

end Cert.ReferenceValue

end
-- ==== Proof.lean ====
/-
  The kernel computes, for each of 500000 input rows, the gradient of a two-layer tanh perceptron's scalar head with
  respect to the row, rotated by a fixed matrix `J`; the reference obtains the same array by reverse-mode
  differentiation followed by the rotation.

  * Both programs run and leave their arguments unchanged: the kernel's two readings by their generated frames, the
    reference by its generated run.
  * The idealization rewrote nothing, so there is nothing to preserve.
  * On the extended reals the kernel's result array is `GradientLaw.gradientArray` of the arguments
    (`KernelValue.run`): the chain rule written out by hand, with the rotation folded beforehand into the matrix
    `W0 · Jᵀ`.  The reference's result is, entry by entry, `GradientLaw.rowGradientReverse` of the entry's input row
    (`ReferenceValue.result_apply`).  The two arrangements agree by `(1 − h)(1 + h) = 1 − h²` and by associativity of
    the matrix product (`GradientLaw.rowGradientReverse_eq`), which needs the weights `W0`, `W1`, `Wout`, `J` to be real
    numbers — what the precondition provides (`FiniteWeights.weights_real`) — while the hidden activations are real
    because they are values of `tanh`.
-/
import proofs.«114070_j19816979103946_2_alg».proof.Defs
import proofs.«114070_j19816979103946_2_alg».proof.Proof.Gen.Kernel
import proofs.«114070_j19816979103946_2_alg».proof.Proof.Gen.Kernel.Skeleton
import proofs.«114070_j19816979103946_2_alg».proof.Proof.Gen.Kernel.Launch
import proofs.«114070_j19816979103946_2_alg».proof.Proof.Gen.Kernel.Points
import proofs.«114070_j19816979103946_2_alg».proof.Proof.Gen.Kernel.Frame
import proofs.«114070_j19816979103946_2_alg».proof.Proof.Gen.KernelIdeal
import proofs.«114070_j19816979103946_2_alg».proof.Proof.Gen.KernelIdeal.Skeleton
import proofs.«114070_j19816979103946_2_alg».proof.Proof.Gen.KernelIdeal.Launch
import proofs.«114070_j19816979103946_2_alg».proof.Proof.Gen.KernelIdeal.Points
import proofs.«114070_j19816979103946_2_alg».proof.Proof.Gen.KernelIdeal.Frame
import proofs.«114070_j19816979103946_2_alg».proof.Proof.Gen.ReferenceIdeal
import proofs.«114070_j19816979103946_2_alg».proof.Proof.Gen.Pre_finite_inputs
import proofs.«114070_j19816979103946_2_alg».proof.Proof.Gen.KernelIdeal.Value
import proofs.«114070_j19816979103946_2_alg».proof.Proof.Gen.ReferenceIdeal.Run
import proofs.«114070_j19816979103946_2_alg».proof.Proof.Gen.ReferenceIdeal.Read
import proofs.«114070_j19816979103946_2_alg».proof.Proof.LibGradientLaw
import proofs.«114070_j19816979103946_2_alg».proof.Proof.FiniteWeights
import proofs.«114070_j19816979103946_2_alg».proof.Proof.KernelValue
import proofs.«114070_j19816979103946_2_alg».proof.Proof.ReferenceValue
import Idealize.ShloMosaic.Lib.IdealHost
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The binary32 word of 1.0 is the real number one. -/
theorem one_eq : Ideal.ofBits .f32 0x3F800000#32 = ((1 : ℝ) : EReal) := by
  rw [Ideal.ofBits_one_f32, EReal.coe_one]

/-- Under the precondition, the reference's result term of the kernel's arguments is the kernel's result array: entry
    by entry the reverse-mode arrangement equals the hand-derived one, the four weight arrays being real. -/
theorem reference_eq_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v35 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg8))
      = Cert.KernelValue.result m c := by
  obtain ⟨hW0, hW1, hWout, hJ⟩ := Cert.FiniteWeights.weights_real _ _ _ _ _ _ _ _ _ (hpre c)
  funext i
  obtain ⟨r, j, rfl⟩ : ∃ (r : Fin 500000) (j : Fin 32), i = ix2 r j := ⟨i 0, i 1, eq_ix2 i⟩
  refine (Cert.ReferenceValue.result_apply _ _ _ _ _ _ _ r j).trans ?_
  unfold Cert.KernelValue.result
  rw [Cert.GradientLaw.gradientArray_ix2]
  exact Cert.GradientLaw.rowGradientReverse_eq _ one_eq _ _ _ _ _ _ _ hW0 hW1 hWout hJ j

/-- On the extended reals, from memories that agree on the arguments, both programs end with the gradient array. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).2.1, (hagree c).2.2.1, (hagree c).2.2.2.1, (hagree c).2.2.2.2.1,
    (hagree c).2.2.2.2.2.1, (hagree c).2.2.2.2.2.2.1, (hagree c).2.2.2.2.2.2.2.2]
  exact reference_eq_result m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
